-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 41
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S50000x128, .bf16⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .bf16⟩
  | .hbm, ⟨19, _⟩ => ⟨S1600000x128, .f32⟩
  | .hbm, ⟨20, _⟩ => ⟨S_, .f32⟩
  | .hbm, ⟨21, _⟩ => ⟨S50000x128, .f32⟩
  | .hbm, ⟨22, _⟩ => ⟨S1600000x1, .i32⟩
  | .hbm, ⟨23, _⟩ => ⟨S50000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S50000, .f32⟩
  | .hbm, ⟨28, _⟩ => ⟨S1600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S50000x128, .f32⟩
  | .hbm, ⟨20, _⟩ => ⟨S1600000x1, .i32⟩
  | .hbm, ⟨21, _⟩ => ⟨S50000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S50000, .f32⟩
  | .hbm, ⟨26, _⟩ => ⟨S1600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Payload.lean ====
/-
  The kernel body's one store, read at an entry of the 5000 x 128 block, at the ideal values.

  With the aggregated block `a`, the node features' block `x`, the per-row reciprocals `r` (a column), the two
  weight matrices already transposed (`wl`, `wr` : input axis first) and the bias `b` (a row), the stored value at
  row `p`, column `q` is
      max ((∑ k, a p k * wl k q) * r p 0 + b 0 q + ∑ k, x p k * wr k q) 0 :
  a change of float format is the identity, and a matrix product into the zero accumulator is the plain sum.
-/
import proofs.«114602_j12635793785118_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The left operand's index of the block product: row of the output entry, the contracted coordinate. -/
theorem lhs_row (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand's index of the block product: the contracted coordinate, column of the output entry. -/
theorem rhs_col (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at an entry: the sum over the 128 contracted positions. -/
theorem matmul_zero_at {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (dot_S5000x128_S128x128_S5000x128_1_0_0_1_n_n.rhsIdx_val_of_single rfl _ _).trans hk
    | ⟨1, _⟩ => exact rhs_col _ _)
  rw [el, er]

/-- A column broadcast along the rows' entries: the column's entry of that row. -/
theorem bcast_col_at (r : FVec Ideal S5000x1 .f32) (p : Fin 5000) (q : Fin 128) :
    broadcastTo S5000x128 r broadcasts_S5000x1_S5000x128 (ix2 p q) = r (ix2 p 0) :=
  broadcastTo_apply r broadcasts_S5000x1_S5000x128 (ix2 p q) (ix2 p 0) (fun d => by
    match d with
    | ⟨0, _⟩ => rfl
    | ⟨1, _⟩ => rfl)

/-- A row broadcast down the columns' entries: the row's entry of that column. -/
theorem bcast_row_at (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun d => by
    match d with
    | ⟨0, _⟩ => rfl
    | ⟨1, _⟩ => rfl)

/-- The body's stored value at row `p`, column `q` of the block. -/
theorem pay_at (a x : Vec Ideal S5000x128 .f32) (wl wr : Vec Ideal S128x128 .f32) (r : Vec Ideal S5000x1 .f32)
    (b : Vec Ideal S1x128 .f32) (p : Fin 5000) (q : Fin 128) :
    k0_pay1 (F := Ideal) a x wl wr r b (ix2 p q)
      = max ((∑ k : Fin 128, a (ix2 p k) * wl (ix2 k q)) * r (ix2 p 0) + b (ix2 0 q)
              + ∑ k : Fin 128, x (ix2 p k) * wr (ix2 k q)) (Ideal.ofBits .f32 0x00000000#32) := by
  unfold k0_pay1
  rw [maximumf_apply, addf_apply, addf_apply, mulf_apply, matmul_zero_at, matmul_zero_at, bcast_col_at, bcast_row_at]
  simp only [shapeCast_self, truncf_apply]
  rfl

end Cert.KernelIdeal.Payload

end
-- ==== Proof.LibRowScale.lean ====
/-
  Scaling the rows of a matrix product by a positive real, over the extended reals.

  For a row `a` and a column `w` of extended reals and a real `m > 0`,
      (∑ k, a k * w k) * (1 / m)  =  ∑ k, (a k / m) * w k ,
  with no finiteness assumption on `a` or `w`: multiplication by a nonnegative real distributes over
  addition of extended reals (also over `⊤ + ⊥`), and the product of extended reals is commutative and
  associative. The divisor of a mean aggregation is `max c 1` for a count `c` — a finite sum of ones,
  so a real, and `max c 1 ≥ 1` —; `sum_one` and `max_one_real` say so.

  Counting by scatter-add: the host's accumulating scatter holds, at each entry, the operand's entry plus the sum of
  the updates that land on it. When the operand's entry is zero and every update is one, the entry is therefore a
  natural number read as a real (`scatterAdd_ones_nat`, `host_scatterAdd_ones_nat`): the number of updates that
  land there. Which updates those are plays no role.
-/
import Idealize.ShloMosaic.PureOps.Ideal
import Idealize.ShloMosaic.PureOps.Ideal.Laws

noncomputable section

open Idealize.ShloMosaic

namespace Cert.RowScale

/-- A nonnegative real factor moves into a finite sum of extended reals. -/
theorem sum_mul_real {ι : Type*} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The row-scale law: a matrix product's entry times the reciprocal of a positive real is the entry of the
    product whose left rows were divided by that real first. -/
theorem dot_mul_inv {ι : Type*} [Fintype ι] (a w : ι → EReal) (m : ℝ) (hm : 0 < m) :
    (∑ k, a k * w k) * Ideal.div 1 (m : EReal) = ∑ k, Ideal.div (a k) (m : EReal) * w k := by
  have hne : m ≠ 0 := ne_of_gt hm
  rw [Ideal.div_coe hne, one_mul, sum_mul_real _ _ _ (by positivity)]
  refine Finset.sum_congr rfl fun k _ => ?_
  rw [Ideal.div_coe hne, mul_right_comm]

/-- A finite sum of ones, as an extended real, is the number of its terms. -/
theorem sum_one {ι : Type*} (s : Finset ι) : (∑ _j ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The larger of a nonnegative count and one is a positive real. -/
theorem max_one_real (n : ℕ) : ∃ m : ℝ, 0 < m ∧ max (0 + ((n : ℝ) : EReal)) 1 = (m : EReal) :=
  ⟨max (n : ℝ) 1, lt_of_lt_of_le one_pos (le_max_right _ _), by
    rw [zero_add, ← EReal.coe_one]
    exact (EReal.coe_strictMono.monotone.map_max).symm⟩

/-- The f32 word of `1.0` denotes the real one. -/
theorem ofBits_one_f32 : Ideal.ofBits .f32 0x3F800000#32 = 1 := by
  simp [Ideal.ofBits, Ideal.ieee]
  rw [← EReal.coe_mul]
  norm_num

/-- A scatter-add of ones into an entry that holds zero is zero plus a natural number, for any shapes, scatter
    dimension numbers and index array. -/
theorem scatterAdd_ones_nat {s si su : Shape} (d : ScatterDims s si su) {w : Nat} (x : s.Idx → EReal) (idx : IVec si w)
    (upd : su.Idx → EReal) (i : s.Idx) (hx : x i = 0) (hu : ∀ j, upd j = 1) :
    ∃ n : ℕ, Ideal.hostScatterAdd d x idx upd i = 0 + ((n : ℝ) : EReal) := by
  unfold Ideal.hostScatterAdd
  rw [hx, Finset.sum_congr rfl (fun j _ => hu j), sum_one]
  exact ⟨_, rfl⟩

/-- The same for the host's scatter-add as a program states it, read at the ideal values. -/
theorem host_scatterAdd_ones_nat {s si su : Shape} (d : ScatterDims s si su) {w : Nat} (x : FVec Ideal s .f32) (idx : IVec si w)
    (upd : FVec Ideal su .f32) (i : s.Idx) (hx : x i = 0) (hu : ∀ j, upd j = 1) :
    ∃ n : ℕ, Host.scatterAdd d x idx upd i = 0 + ((n : ℝ) : EReal) :=
  scatterAdd_ones_nat d x idx upd i hx hu

end Cert.RowScale

end
-- ==== Proof.Spec.lean ====
/-
  The mean-aggregating graph layer, entry by entry, over the extended reals.

  For a node `p` and an output feature `q`, with `agg` the sum of the neighbours' features, `M p ≥ 1` the divisor of
  the mean, `x` the nodes' own features, `Wl`, `Wr` the two weight matrices (output feature first) and `b` the bias:
      entry p q = max (∑ k, (agg p k / M p) * Wl q k  +  b q  +  ∑ k, x p k * Wr q k) 0 .
  `entryScaled` is the same layer computed the other way round — the product with `Wl` first, each row scaled by the
  reciprocal `1 / M p` afterwards, the weights read transposed, the bias as a row, the reciprocals as a column —, and
  `entryScaled_eq` says the two agree when `M p` is a positive real: scaling a row by a nonnegative real commutes with
  the matrix product on the extended reals, whatever the entries.
-/
import proofs.«114602_j12635793785118_2_alg».proof.Proof.LibRowScale
import Idealize.ShloMosaic.Lib.ValueIdx

noncomputable section

namespace Cert.Sage

open Idealize.ShloMosaic Idealize.ShloMosaic.ValueIdx

/-- The layer's output at node `p`, feature `q`: mean of the neighbours through `Wl`, plus bias, plus the node's own
    features through `Wr`, clamped at zero. -/
def entry (agg : (⟨2, ![50000, 128]⟩ : Shape).Idx → EReal) (M : (⟨1, ![50000]⟩ : Shape).Idx → EReal)
    (x : (⟨2, ![50000, 128]⟩ : Shape).Idx → EReal) (Wl : (⟨2, ![128, 128]⟩ : Shape).Idx → EReal)
    (b : (⟨1, ![128]⟩ : Shape).Idx → EReal) (Wr : (⟨2, ![128, 128]⟩ : Shape).Idx → EReal)
    (p : Fin 50000) (q : Fin 128) : EReal :=
  max ((∑ k : Fin 128, Ideal.div (agg (ix2 p k)) (M (ix1 p)) * Wl (ix2 q k)) + b (ix1 q)
        + ∑ k : Fin 128, x (ix2 p k) * Wr (ix2 q k)) (Ideal.ofBits .f32 0x00000000#32)

/-- The layer's whole output array. -/
def layer (agg : (⟨2, ![50000, 128]⟩ : Shape).Idx → EReal) (M : (⟨1, ![50000]⟩ : Shape).Idx → EReal)
    (x : (⟨2, ![50000, 128]⟩ : Shape).Idx → EReal) (Wl : (⟨2, ![128, 128]⟩ : Shape).Idx → EReal)
    (b : (⟨1, ![128]⟩ : Shape).Idx → EReal) (Wr : (⟨2, ![128, 128]⟩ : Shape).Idx → EReal) :
    (⟨2, ![50000, 128]⟩ : Shape).Idx → EReal :=
  fun i => entry agg M x Wl b Wr (i 0) (i 1)

/-- The layer at an index given by its coordinates. -/
theorem layer_ix2 (agg : (⟨2, ![50000, 128]⟩ : Shape).Idx → EReal) (M : (⟨1, ![50000]⟩ : Shape).Idx → EReal)
    (x : (⟨2, ![50000, 128]⟩ : Shape).Idx → EReal) (Wl : (⟨2, ![128, 128]⟩ : Shape).Idx → EReal)
    (b : (⟨1, ![128]⟩ : Shape).Idx → EReal) (Wr : (⟨2, ![128, 128]⟩ : Shape).Idx → EReal) (p : Fin 50000) (q : Fin 128) :
    layer agg M x Wl b Wr (ix2 p q) = entry agg M x Wl b Wr p q := rfl

/-- The same entry with the row scaling after the product: weights transposed, reciprocals as a column, bias as a row. -/
def entryScaled (agg : (⟨2, ![50000, 128]⟩ : Shape).Idx → EReal) (inv : (⟨2, ![50000, 1]⟩ : Shape).Idx → EReal)
    (x : (⟨2, ![50000, 128]⟩ : Shape).Idx → EReal) (WlT : (⟨2, ![128, 128]⟩ : Shape).Idx → EReal)
    (bRow : (⟨2, ![1, 128]⟩ : Shape).Idx → EReal) (WrT : (⟨2, ![128, 128]⟩ : Shape).Idx → EReal)
    (p : Fin 50000) (q : Fin 128) : EReal :=
  max ((∑ k : Fin 128, agg (ix2 p k) * WlT (ix2 k q)) * inv (ix2 p 0) + bRow (ix2 0 q)
        + ∑ k : Fin 128, x (ix2 p k) * WrT (ix2 k q)) (Ideal.ofBits .f32 0x00000000#32)

/-- Scaling after the product is dividing before it, when the divisor is a positive real. -/
theorem entryScaled_eq (agg : (⟨2, ![50000, 128]⟩ : Shape).Idx → EReal) (M : (⟨1, ![50000]⟩ : Shape).Idx → EReal)
    (inv : (⟨2, ![50000, 1]⟩ : Shape).Idx → EReal)
    (x : (⟨2, ![50000, 128]⟩ : Shape).Idx → EReal) (Wl WlT : (⟨2, ![128, 128]⟩ : Shape).Idx → EReal)
    (b : (⟨1, ![128]⟩ : Shape).Idx → EReal) (bRow : (⟨2, ![1, 128]⟩ : Shape).Idx → EReal)
    (Wr WrT : (⟨2, ![128, 128]⟩ : Shape).Idx → EReal) (p : Fin 50000) (q : Fin 128)
    (hM : ∃ r : ℝ, 0 < r ∧ M (ix1 p) = (r : EReal))
    (hinv : inv (ix2 p 0) = Ideal.div 1 (M (ix1 p)))
    (hWl : ∀ k : Fin 128, WlT (ix2 k q) = Wl (ix2 q k)) (hWr : ∀ k : Fin 128, WrT (ix2 k q) = Wr (ix2 q k))
    (hb : bRow (ix2 0 q) = b (ix1 q)) :
    entryScaled agg inv x WlT bRow WrT p q = entry agg M x Wl b Wr p q := by
  obtain ⟨r, hr, hMr⟩ := hM
  unfold entryScaled entry
  rw [hinv, hb, hMr]
  simp only [hWl, hWr]
  rw [Cert.RowScale.dot_mul_inv _ _ r hr]

/-- The whole array computed the scaled way. -/
def layerScaled (agg : (⟨2, ![50000, 128]⟩ : Shape).Idx → EReal) (inv : (⟨2, ![50000, 1]⟩ : Shape).Idx → EReal)
    (x : (⟨2, ![50000, 128]⟩ : Shape).Idx → EReal) (WlT : (⟨2, ![128, 128]⟩ : Shape).Idx → EReal)
    (bRow : (⟨2, ![1, 128]⟩ : Shape).Idx → EReal) (WrT : (⟨2, ![128, 128]⟩ : Shape).Idx → EReal) :
    (⟨2, ![50000, 128]⟩ : Shape).Idx → EReal :=
  fun i => entryScaled agg inv x WlT bRow WrT (i 0) (i 1)

/-- The scaled array at an index given by its coordinates. -/
theorem layerScaled_ix2 (agg : (⟨2, ![50000, 128]⟩ : Shape).Idx → EReal) (inv : (⟨2, ![50000, 1]⟩ : Shape).Idx → EReal)
    (x : (⟨2, ![50000, 128]⟩ : Shape).Idx → EReal) (WlT : (⟨2, ![128, 128]⟩ : Shape).Idx → EReal)
    (bRow : (⟨2, ![1, 128]⟩ : Shape).Idx → EReal) (WrT : (⟨2, ![128, 128]⟩ : Shape).Idx → EReal) (p : Fin 50000) (q : Fin 128) :
    layerScaled agg inv x WlT bRow WrT (ix2 p q) = entryScaled agg inv x WlT bRow WrT p q := rfl

/-- The two arrangements give one array, when every divisor is a positive real, the reciprocals are those of the
    divisors, the weights are read transposed and the bias row is the bias. -/
theorem layerScaled_eq (agg : (⟨2, ![50000, 128]⟩ : Shape).Idx → EReal) (M : (⟨1, ![50000]⟩ : Shape).Idx → EReal)
    (inv : (⟨2, ![50000, 1]⟩ : Shape).Idx → EReal)
    (x : (⟨2, ![50000, 128]⟩ : Shape).Idx → EReal) (Wl WlT : (⟨2, ![128, 128]⟩ : Shape).Idx → EReal)
    (b : (⟨1, ![128]⟩ : Shape).Idx → EReal) (bRow : (⟨2, ![1, 128]⟩ : Shape).Idx → EReal)
    (Wr WrT : (⟨2, ![128, 128]⟩ : Shape).Idx → EReal)
    (hM : ∀ p : Fin 50000, ∃ r : ℝ, 0 < r ∧ M (ix1 p) = (r : EReal))
    (hinv : ∀ p : Fin 50000, inv (ix2 p 0) = Ideal.div 1 (M (ix1 p)))
    (hWl : ∀ k q : Fin 128, WlT (ix2 k q) = Wl (ix2 q k)) (hWr : ∀ k q : Fin 128, WrT (ix2 k q) = Wr (ix2 q k))
    (hb : ∀ q : Fin 128, bRow (ix2 0 q) = b (ix1 q)) :
    layerScaled agg inv x WlT bRow WrT = layer agg M x Wl b Wr := by
  funext i
  obtain ⟨p, q, rfl⟩ : ∃ (p : Fin 50000) (q : Fin 128), i = ix2 p q := ⟨i 0, i 1, eq_ix2 i⟩
  rw [layerScaled_ix2, layer_ix2]
  exact entryScaled_eq agg M inv x Wl WlT b bRow Wr WrT p q (hM p) (hinv p) (fun k => hWl k q) (fun k => hWr k q) (hb q)

end Cert.Sage

end
-- ==== Proof.Blocks.lean ====
/-
  The kernel's blocks, read at an entry.

  The grid has ten points; point `t` works on rows `5000 t … 5000 t + 4999`. Of a row-blocked array (the
  aggregated sums, the node features, the column of reciprocals, the result) its block holds those rows, so entry
  (p, k) of the block is entry (5000 t + p, k) of the array; the two transposed weight matrices and the bias row
  are one block each, the same at every point. Every lemma here is about an arbitrary array of the window's shape.
-/
import proofs.«114602_j12635793785118_2_alg».proof.Proof.Gen.KernelIdeal.Value
import proofs.«114602_j12635793785118_2_alg».proof.Proof.Payload
import proofs.«114602_j12635793785118_2_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.ValueIdx

/-- The printed block index maps over the ten grid points: the three row-blocked inputs and the output move down
    one block of rows per point; the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `5000 t + p` of the array. -/
def row (t : Fin cfg0.N) (p : Fin 5000) : Fin 50000 :=
  ⟨5000 * t.val + p.val, by have ht : t.val < 10 := t.isLt; have hp : p.val < 5000 := p.isLt; omega⟩

variable (c : Dev nD)

/-- Window 0 (the aggregated sums): rows `5000 t …` of its array. -/
theorem read0 (A : Buf (Elt Ideal) ((c : Thread nD τ).loc main_v15)) (t : Fin cfg0.N) (p : Fin 5000) (k : Fin 128) :
    ((cfg0.win 0).blk t).view.read (Elt Ideal) A (ix2 p k) = A (ix2 (row t p) k) := by
  obtain ⟨e0, e1, -⟩ := idx_facts t
  rw [View.read_apply]
  refine congrArg A (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- Window 1 (the node features): rows `5000 t …` of its array. -/
theorem read1 (A : Buf (Elt Ideal) ((c : Thread nD τ).loc main_arg0)) (t : Fin cfg0.N) (p : Fin 5000) (k : Fin 128) :
    ((cfg0.win 1).blk t).view.read (Elt Ideal) A (ix2 p k) = A (ix2 (row t p) k) := by
  obtain ⟨-, -, e0, e1, -⟩ := idx_facts t
  rw [View.read_apply]
  refine congrArg A (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

/-- Window 2 (the reciprocals, a column): rows `5000 t …` of its array. -/
theorem read2 (A : Buf (Elt Ideal) ((c : Thread nD τ).loc main_v24)) (t : Fin cfg0.N) (p : Fin 5000) :
    ((cfg0.win 2).blk t).view.read (Elt Ideal) A (ix2 p (0 : Fin 1)) = A (ix2 (row t p) (0 : Fin 1)) := by
  obtain ⟨-, -, -, -, e0, e1, -⟩ := idx_facts t
  rw [View.read_apply]
  refine congrArg A (funext fun a => Fin.ext ?_)
  match a with
  | ⟨0, _⟩ => show win0_2.index t (0 : Fin 2) * 5000 + 1 * p.val = 5000 * t.val + p.val; omega
  | ⟨1, _⟩ => show win0_2.index t (1 : Fin 2) * 1 + 1 * 0 = 0; omega

/-- Window 3 (the first weight matrix, transposed): the whole array at every point. -/
theorem read3 (A : Buf (Elt Ideal) ((c : Thread nD τ).loc main_v25)) (t : Fin cfg0.N) (k q : Fin 128) :
    ((cfg0.win 3).blk t).view.read (Elt Ideal) A (ix2 k q) = A (ix2 k q) := by
  obtain ⟨-, -, -, -, -, -, e0, e1, -⟩ := idx_facts t
  rw [View.read_apply]
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Window 4 (the bias, a row): the whole array at every point. -/
theorem read4 (A : Buf (Elt Ideal) ((c : Thread nD τ).loc main_v27)) (t : Fin cfg0.N) (q : Fin 128) :
    ((cfg0.win 4).blk t).view.read (Elt Ideal) A (ix2 (0 : Fin 1) q) = A (ix2 (0 : Fin 1) q) := by
  obtain ⟨-, -, -, -, -, -, -, -, e0, e1, -⟩ := idx_facts t
  rw [View.read_apply]
  refine congrArg A (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Window 5 (the second weight matrix, transposed): the whole array at every point. -/
theorem read5 (A : Buf (Elt Ideal) ((c : Thread nD τ).loc main_v26)) (t : Fin cfg0.N) (k q : Fin 128) :
    ((cfg0.win 5).blk t).view.read (Elt Ideal) A (ix2 k q) = A (ix2 k q) := by
  obtain ⟨-, -, -, -, -, -, -, -, -, -, e0, e1, -⟩ := idx_facts t
  rw [View.read_apply]
  refine congrArg A (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

/-- Entry (p, q) of the output's block at point `t` is entry (5000 t + p, q) of the result array. -/
theorem emb_out (t : Fin cfg0.N) (p : Fin 5000) (q : Fin 128) :
    ((cfg0.win 6).blk t).view.emb (ix2 p q) = ix2 (row t p) q := by
  obtain ⟨-, -, -, -, -, -, -, -, -, -, -, -, e0, e1⟩ := idx_facts t
  funext a
  apply Fin.ext
  match a with
  | ⟨0, _⟩ => show win0_6.index t (0 : Fin 2) * 5000 + 1 * p.val = 5000 * t.val + p.val; omega
  | ⟨1, _⟩ => show win0_6.index t (1 : Fin 2) * 128 + 1 * q.val = q.val; omega

/-- The output window: entry (p, q) of its block at point `t`, of ANY array, is entry (5000 t + p, q) of the array. -/
theorem read6 (G : Buf (Elt Ideal) ((c : Thread nD τ).loc main_v28)) (t : Fin cfg0.N) (p : Fin 5000) (q : Fin 128) :
    ((cfg0.win 6).blk t).view.read (Elt Ideal) G (ix2 p q) = G (ix2 (row t p) q) := by
  rw [View.read_apply, emb_out]
  rfl

/-- The output window writes back its whole staging buffer: nothing is cut off. -/
theorem cut6 (t : Fin cfg0.N) (v : Vec Ideal S5000x128 .f32) : (cfg0.win 6).cut (grid0.coords t) v = v := rfl

/-- The body's stored value at (p, q), on the blocks of ARBITRARY arrays at point `t`, is the scaled entry of the
    specification at row `5000 t + p`, column `q` of those arrays. -/
theorem body_entry (A : Buf (Elt Ideal) ((c : Thread nD τ).loc main_v15)) (X : Buf (Elt Ideal) ((c : Thread nD τ).loc main_arg0))
    (I : Buf (Elt Ideal) ((c : Thread nD τ).loc main_v24)) (WlT : Buf (Elt Ideal) ((c : Thread nD τ).loc main_v25))
    (B : Buf (Elt Ideal) ((c : Thread nD τ).loc main_v27)) (WrT : Buf (Elt Ideal) ((c : Thread nD τ).loc main_v26))
    (t : Fin cfg0.N) (p : Fin 5000) (q : Fin 128) :
    k0_pay1 (F := Ideal) (((cfg0.win 0).blk t).view.read (Elt Ideal) A) (((cfg0.win 1).blk t).view.read (Elt Ideal) X)
        (((cfg0.win 3).blk t).view.read (Elt Ideal) WlT) (((cfg0.win 5).blk t).view.read (Elt Ideal) WrT)
        (((cfg0.win 2).blk t).view.read (Elt Ideal) I) (((cfg0.win 4).blk t).view.read (Elt Ideal) B) (ix2 p q)
      = Cert.Sage.layerScaled A I X WlT B WrT (ix2 (row t p) q) := by
  rw [Cert.Sage.layerScaled_ix2]
  refine (Payload.pay_at _ _ _ _ _ _ p q).trans ?_
  unfold Cert.Sage.entryScaled
  refine congrArg₂ max (congrArg₂ HAdd.hAdd (congrArg₂ HAdd.hAdd (congrArg₂ HMul.hMul
    (Finset.sum_congr rfl fun k _ => ?_) ?_) ?_) (Finset.sum_congr rfl fun k _ => ?_)) rfl
  · rw [read0, read3]
  · exact read2 c I t p
  · exact read4 c B t q
  · rw [read1, read5]

end Cert.KernelIdeal.Blocks

end
-- ==== Proof.KernelArray.lean ====
/-
  The kernel's result array, from its blocks.

  Point `t` writes back rows `5000 t … 5000 t + 4999` of the result, and what it writes at (p, q) is the body's
  stored value on the point's blocks: the scaled entry of the specification at (5000 t + p, q) of the arrays the
  region finds. The ten row blocks tile the 50000 rows, so the result array is the scaled layer of those arrays.
-/
import proofs.«114602_j12635793785118_2_alg».proof.Proof.Blocks

noncomputable section

namespace Cert.KernelIdeal.KernelArray

open Cert.KernelIdeal Cert.KernelIdeal.Gen Idealize.ShloMosaic Idealize.ShloMosaic.TcCoe Idealize.SL.Sem
open Idealize.ShloMosaic.ValueIdx Cert.KernelIdeal.Blocks
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the arrays the region finds. -/
def scaled (c : Dev nD) : Buf (Elt Ideal) ((c : Thread nD τ).loc main_v28) :=
  Cert.Sage.layerScaled (V m c main_v15) (V m c main_v24) (V m c main_arg0) (V m c main_v25) (V m c main_v27)
    (V m c main_v26)

/-- What point `t` writes back is block `t` of `scaled`. -/
theorem flushed_eq (c : Dev nD) (t : Fin cfg0.N) :
    (dats m 0 c).flushed 6 t = ((cfg0.win 6).blk t).view.read (Elt Ideal) (scaled m c) := by
  rw [Value.flushed6]
  unfold out0_6
  rw [View.canon_unit_zero hz]
  simp only [View.ld_unit_zero (S := S5000x128) hz, View.ld_unit_zero (S := S128x128) hz,
    View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  rw [read6, cut6]
  exact body_entry c (V m c main_v15) (V m c main_arg0) (V m c main_v24) (V m c main_v25) (V m c main_v27) (V m c main_v26) t p q

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v28).slice (win0_6.rect t)).set ↔ _
  rw [View.set_slice_whole, Rect.mem_set_unit]
  exact Iff.rfl

/-- Every row lies in some point's block: row `r` in the block of point `r / 5000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have ht : (i 0).val / 5000 < cfg0.N := by show (i 0).val / 5000 < 10; omega
  refine ⟨⟨(i 0).val / 5000, ht⟩, flush0_6 _, ?_⟩
  obtain ⟨-, -, -, -, -, -, -, -, -, -, -, -, e0, e1⟩ := idx_facts ⟨(i 0).val / 5000, ht⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]; omega

/-- The result array after the run. -/
theorem final (c : Dev nD) : (dats m 0 c).arrAt 6 cfg0.N = scaled m c :=
  (dats m 0 c).arrAt_eq_of_cover 6 (scaled m c) (fun t _ => flushed_eq m c t) cover

/-- The kernel's run with the result array named. -/
theorem run : θ_run defs (onTc (τ := τ) (main (F := Ideal))) ⟨m, fun _ => 0, ρ⟩ fun r => ∀ c : Dev nD,
      r.2.mem ((c : Thread nD τ).loc main_v28) = scaled m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelArray

end
-- ==== Proof.RegionEntry.lean ====
/-
  The arrays the kernel's region finds, at the ideal values, as functions of the argument arrays.

  Before the region the program gathers the source rows of `x` for every edge, scatter-adds them at the edges'
  destinations (`agg`), scatter-adds a one per edge (`cnt`), forms the column `1 / max cnt 1`, transposes the two
  weight matrices and reshapes the bias to a row. It gathers from a narrower-format copy of `x` and widens the
  gathered rows again; at the ideal values both format changes are the identity, so its aggregated array is the
  reference's own aggregation stage, term for term, and likewise its count. The gather and the scatters are not
  opened: each array is read off the list of operations and compared with the reference's stage as a whole.
-/
import proofs.«114602_j12635793785118_2_alg».proof.Proof.Gen.KernelIdeal.Frame
import proofs.«114602_j12635793785118_2_alg».proof.Proof.Gen.ReferenceIdeal.Read
import Idealize.ShloMosaic.Lib.StableHlo.Run

noncomputable section

namespace Cert.KernelIdeal.RegionEntry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The aggregated neighbour sums the region finds are the reference's aggregation stage of the same arguments. -/
theorem V_agg (c : Dev nD) : (V m c main_v15 : S50000x128.Idx → EReal)
    = Cert.ReferenceIdeal.Read.val_main_v13 (F := Ideal) (m ((c : Thread nD τ).loc main_arg0)) (m ((c : Thread nD τ).loc main_arg1)) := by
  dsimp only [Gen.V, Gen.hostOps0]
  after_results_simp
  rfl

/-- The column of reciprocals: one over the reference's divisor stage `max cnt 1`, reshaped to a column. -/
theorem V_inv (c : Dev nD) : (V m c main_v24 : S50000x1.Idx → EReal)
    = shapeCast S50000x1 (Host.divf (broadcastInDim S50000 ![] bcast_S_S50000 (constant (F := Ideal) S_ .f32 0x3F800000#32))
        (Cert.ReferenceIdeal.Read.val_main_v19 (F := Ideal) (m ((c : Thread nD τ).loc main_arg1)))) shapeCasts_S50000_S50000x1 := by
  dsimp only [Gen.V, Gen.hostOps0]
  after_results_simp
  rfl

/-- The first weight matrix, transposed. -/
theorem V_wl (c : Dev nD) : (V m c main_v25 : S128x128.Idx → EReal)
    = Cert.ReferenceIdeal.Read.val_main_v23 (F := Ideal) (m ((c : Thread nD τ).loc main_arg2)) := by
  dsimp only [Gen.V, Gen.hostOps0]
  after_results_simp
  rfl

/-- The second weight matrix, transposed. -/
theorem V_wr (c : Dev nD) : (V m c main_v26 : S128x128.Idx → EReal)
    = Cert.ReferenceIdeal.Read.val_main_v28 (F := Ideal) (m ((c : Thread nD τ).loc main_arg4)) := by
  dsimp only [Gen.V, Gen.hostOps0]
  after_results_simp
  rfl

/-- The bias, reshaped to a row. -/
theorem V_b (c : Dev nD) : (V m c main_v27 : S1x128.Idx → EReal)
    = shapeCast S1x128 (m ((c : Thread nD τ).loc main_arg3)) shapeCasts_S128_S1x128 := by
  dsimp only [Gen.V, Gen.hostOps0]
  after_results_simp
  rfl

end Cert.KernelIdeal.RegionEntry

end
-- ==== Proof.RefLayer.lean ====
/-
  The reference's result is the layer of the specification: entry (p, q) of its last stage is
      max (∑ k, (agg p k / M p) * W_l q k + b q + ∑ k, x p k * W_r q k) 0
  with `agg` its scatter-added neighbour sums and `M = max cnt 1` its divisor, both read as whole stages and
  never opened here. Each matrix product is a sum over the 128 input features, a transposed weight matrix read at
  (k, q) is the weight at (q, k), and the broadcasts of the divisor and of the bias read their operand at the row
  and at the column of the entry.
-/
import proofs.«114602_j12635793785118_2_alg».proof.Proof.Gen.ReferenceIdeal.Read
import proofs.«114602_j12635793785118_2_alg».proof.Proof.Spec

noncomputable section

namespace Cert.ReferenceIdeal.RefLayer

open Cert.ReferenceIdeal Cert.ReferenceIdeal.Read Idealize.ShloMosaic Idealize.ShloMosaic.ValueIdx

/-! The composed index maps of the stages, at coordinates. -/

theorem lidx24 (p : Fin 50000) (q k : Fin 128) : lidx_main_v24 (ix2 p q) k = ix2 p k :=
  funext fun a => Fin.ext (by match a with | ⟨0, _⟩ => rfl | ⟨1, _⟩ => rfl)
theorem ridx24 (p : Fin 50000) (q k : Fin 128) : ridx_main_v24 (ix2 p q) k = ix2 k q :=
  funext fun a => Fin.ext (by match a with | ⟨0, _⟩ => rfl | ⟨1, _⟩ => rfl)
theorem lidx29 (p : Fin 50000) (q k : Fin 128) : lidx_main_v29 (ix2 p q) k = ix2 p k :=
  funext fun a => Fin.ext (by match a with | ⟨0, _⟩ => rfl | ⟨1, _⟩ => rfl)
theorem ridx29 (p : Fin 50000) (q k : Fin 128) : ridx_main_v29 (ix2 p q) k = ix2 k q :=
  funext fun a => Fin.ext (by match a with | ⟨0, _⟩ => rfl | ⟨1, _⟩ => rfl)
theorem idx23 (q k : Fin 128) : idx_main_v23 (ix2 k q) = ix2 q k :=
  funext fun a => Fin.ext (by match a with | ⟨0, _⟩ => rfl | ⟨1, _⟩ => rfl)
theorem idx28 (q k : Fin 128) : idx_main_v28 (ix2 k q) = ix2 q k :=
  funext fun a => Fin.ext (by match a with | ⟨0, _⟩ => rfl | ⟨1, _⟩ => rfl)
theorem idx21 (p : Fin 50000) (k : Fin 128) : idx_main_v21 (ix2 p k) = ix2 p (0 : Fin 1) :=
  funext fun a => Fin.ext (by match a with | ⟨0, _⟩ => rfl | ⟨1, _⟩ => rfl)
theorem idx20 (p : Fin 50000) : idx_main_v20 (ix2 p (0 : Fin 1)) = ix1 p :=
  funext fun a => Fin.ext (by match a with | ⟨0, _⟩ => rfl)
theorem idx26 (p : Fin 50000) (q : Fin 128) : idx_main_v26 (ix2 p q) = ix2 (0 : Fin 1) q :=
  funext fun a => Fin.ext (by match a with | ⟨0, _⟩ => rfl | ⟨1, _⟩ => rfl)
theorem idx25 (q : Fin 128) : idx_main_v25 (ix2 (0 : Fin 1) q) = ix1 q :=
  funext fun a => Fin.ext (by match a with | ⟨0, _⟩ => rfl)

/-- One summand of the neighbours' product: the mean's entry times the weight. -/
theorem mean_term (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (p : Fin 50000) (q k : Fin 128) :
    val_main_v22 (F := Ideal) x0 x1 (lidx_main_v24 (ix2 p q) k) * val_main_v23 (F := Ideal) x2 (ridx_main_v24 (ix2 p q) k)
      = Ideal.div (val_main_v13 (F := Ideal) x0 x1 (ix2 p k)) (val_main_v19 (F := Ideal) x1 (ix1 p)) * x2 (ix2 q k) := by
  rw [lidx24, ridx24, val_main_v22_apply, val_main_v21_apply, idx21, val_main_v20_apply, idx20, val_main_v23_apply, idx23,
    Ideal.hostDivf_def]

/-- One summand of the node's own product. -/
theorem root_term (x0 : (⟨S50000x128, .f32⟩ : BufTy).Contents (Elt Ideal)) (x4 : (⟨S128x128, .f32⟩ : BufTy).Contents (Elt Ideal))
    (p : Fin 50000) (q k : Fin 128) :
    x0 (lidx_main_v29 (ix2 p q) k) * val_main_v28 (F := Ideal) x4 (ridx_main_v29 (ix2 p q) k) = x0 (ix2 p k) * x4 (ix2 q k) := by
  rw [lidx29, ridx29, val_main_v28_apply, idx28]

/-- The reference's last stage is the specification's layer of its aggregation and divisor stages. -/
theorem result_eq (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4
      = Cert.Sage.layer (val_main_v13 (F := Ideal) x0 x1) (val_main_v19 (F := Ideal) x1) x0 x2 x3 x4 := by
  funext i
  obtain ⟨p, q, rfl⟩ : ∃ (p : Fin 50000) (q : Fin 128), i = ix2 p q := ⟨i 0, i 1, eq_ix2 i⟩
  rw [val_main_v31_apply, val_main_v30_apply, val_main_v27_apply, val_main_v24_apply, val_main_v26_apply,
    val_main_v25_apply, val_main_v29_apply, val_main_call0_v0_apply, val_main_call0_cst_apply,
    Finset.sum_congr rfl (fun k _ => mean_term x0 x1 x2 p q k), Finset.sum_congr rfl (fun k _ => root_term x0 x4 p q k),
    idx26, idx25, Cert.Sage.layer_ix2]
  unfold Cert.Sage.entry
  rw [Ideal.maximumf_def, Ideal.addf_def, Ideal.addf_def, Ideal.ofBits_def]

end Cert.ReferenceIdeal.RefLayer

end
-- ==== Proof.Divisor.lean ====
/-
  The divisor of the mean is a positive real.

  The neighbour count of a node is the scatter-added sum of ones over the edges that end at it, from zero: a finite
  sum of ones, so a natural number read as a real; the divisor `max cnt 1` is then a real that is at least one.
  Which edges end at the node is never looked at.
-/
import proofs.«114602_j12635793785118_2_alg».proof.Proof.Gen.ReferenceIdeal.Read
import proofs.«114602_j12635793785118_2_alg».proof.Proof.LibRowScale

noncomputable section

namespace Cert.ReferenceIdeal.Divisor

open Cert.ReferenceIdeal Cert.ReferenceIdeal.Read Idealize.ShloMosaic

/-- The array the counts are added into holds zero everywhere. -/
theorem zeros_at (i : S50000.Idx) : val_main_v15 (F := Ideal) i = 0 := by
  rw [val_main_v15_apply, val_main_cst_2_apply, Ideal.ofBits_def, Ideal.ofBits_zero_f32]

/-- Every edge contributes a one. -/
theorem ones_at (j : S1600000.Idx) : val_main_v14 (F := Ideal) j = 1 := by
  rw [val_main_v14_apply, val_main_cst_1_apply, Ideal.ofBits_def, Cert.RowScale.ofBits_one_f32]

/-- A node's neighbour count is zero plus a natural number. -/
theorem count_nat (x1 : (⟨S2x1600000, .i32⟩ : BufTy).Contents (Elt Ideal)) (i : S50000.Idx) :
    ∃ n : ℕ, val_main_v17 (F := Ideal) x1 i = 0 + ((n : ℝ) : EReal) :=
  Cert.RowScale.host_scatterAdd_ones_nat scatter_S50000_S1600000x1_S1600000_n_0_0_1 (val_main_v15 (F := Ideal))
    (val_main_v16 (F := Ideal) x1) (val_main_v14 (F := Ideal)) i (zeros_at i) ones_at

/-- The divisor `max cnt 1` at a node is a positive real. -/
theorem divisor_real (x1 : (⟨S2x1600000, .i32⟩ : BufTy).Contents (Elt Ideal)) (i : S50000.Idx) :
    ∃ r : ℝ, 0 < r ∧ val_main_v19 (F := Ideal) x1 i = (r : EReal) := by
  obtain ⟨n, hn⟩ := count_nat x1 i
  obtain ⟨r, hr, he⟩ := Cert.RowScale.max_one_real n
  refine ⟨r, hr, ?_⟩
  rw [val_main_v19_apply, hn, val_main_v18_apply, val_main_cst_3_apply, Ideal.maximumf_def, Ideal.ofBits_def,
    Cert.RowScale.ofBits_one_f32]
  exact he

end Cert.ReferenceIdeal.Divisor

end
-- ==== Proof.KernelLayer.lean ====
/-
  The kernel's result array is the layer of the specification.

  The arrays the region finds are: the scatter-added neighbour sums (the reference's own aggregation stage, a change
  of float format being the identity), the node features, the column of reciprocals `1 / max cnt 1`, the two weight
  matrices transposed, and the bias as a row. The divisor `max cnt 1` is a positive real, so scaling the product's
  rows by its reciprocal is dividing the aggregated rows by it first: the scaled layer of these arrays is the
  specification's layer of the aggregation and divisor stages and the argument arrays.
-/
import proofs.«114602_j12635793785118_2_alg».proof.Proof.KernelArray
import proofs.«114602_j12635793785118_2_alg».proof.Proof.RegionEntry
import proofs.«114602_j12635793785118_2_alg».proof.Proof.RefLayer
import proofs.«114602_j12635793785118_2_alg».proof.Proof.Divisor

noncomputable section

namespace Cert.KernelIdeal.KernelLayer

open Cert.KernelIdeal Cert.KernelIdeal.Gen Idealize.ShloMosaic Idealize.ShloMosaic.TcCoe Idealize.SL.Sem
open Idealize.ShloMosaic.ValueIdx

/-- The reciprocals' column at row `p`: one over the divisor at `p`, for ANY divisor array. -/
theorem inv_at (M : FVec Ideal S50000 .f32) (p : Fin 50000) :
    shapeCast S50000x1 (Host.divf (broadcastInDim S50000 ![] bcast_S_S50000 (constant (F := Ideal) S_ .f32 0x3F800000#32)) M)
        shapeCasts_S50000_S50000x1 (ix2 p (0 : Fin 1)) = Ideal.div 1 (M (ix1 p)) := by
  rw [shapeCast_apply _ shapeCasts_S50000_S50000x1 (ix2 p (0 : Fin 1)) (ix1 p) (by
    rewrite [Shape.rowMajor_val_one, Shape.rowMajor_val_two]; show p.val = p.val * 1 + 0; omega)]
  show Ideal.div (Ideal.ofBits .f32 0x3F800000#32) (M (ix1 p)) = _
  rw [Cert.RowScale.ofBits_one_f32]

/-- The bias as a row, at column `q`: the bias at `q`, for ANY bias array. -/
theorem bias_at (b : FVec Ideal S128 .f32) (q : Fin 128) :
    shapeCast S1x128 b shapeCasts_S128_S1x128 (ix2 (0 : Fin 1) q) = b (ix1 q) :=
  shapeCast_apply b shapeCasts_S128_S1x128 (ix2 (0 : Fin 1) q) (ix1 q) (by
    rewrite [Shape.rowMajor_val_one, Shape.rowMajor_val_two]; show q.val = 0 * 128 + q.val; omega)

variable (m : (ℓ : Loc nD τ sig) → Buf (Elt Ideal) ℓ)

/-- The result array is the specification's layer of the aggregation stage, the divisor stage and the arguments. -/
theorem scaled_eq (c : Dev nD) :
    KernelArray.scaled m c
      = Cert.Sage.layer
          (Cert.ReferenceIdeal.Read.val_main_v13 (F := Ideal) (m ((c : Thread nD τ).loc main_arg0)) (m ((c : Thread nD τ).loc main_arg1)))
          (Cert.ReferenceIdeal.Read.val_main_v19 (F := Ideal) (m ((c : Thread nD τ).loc main_arg1)))
          (m ((c : Thread nD τ).loc main_arg0)) (m ((c : Thread nD τ).loc main_arg2))
          (m ((c : Thread nD τ).loc main_arg3)) (m ((c : Thread nD τ).loc main_arg4)) := by
  unfold KernelArray.scaled
  rw [RegionEntry.V_agg, RegionEntry.V_inv, RegionEntry.V_wl, RegionEntry.V_b, RegionEntry.V_wr, V_main_arg0]
  exact Cert.Sage.layerScaled_eq _ _ _ _ _ _ _ _ _ _
    (fun p => Cert.ReferenceIdeal.Divisor.divisor_real _ (ix1 p))
    (fun p => inv_at _ p)
    (fun k q => (Cert.ReferenceIdeal.Read.val_main_v23_apply _ (ix2 k q)).trans (congrArg _ (Cert.ReferenceIdeal.RefLayer.idx23 q k)))
    (fun k q => (Cert.ReferenceIdeal.Read.val_main_v28_apply _ (ix2 k q)).trans (congrArg _ (Cert.ReferenceIdeal.RefLayer.idx28 q k)))
    (fun q => bias_at _ q)

end Cert.KernelIdeal.KernelLayer

end
-- ==== Proof.lean ====
/-
  The kernel computes one layer of mean-aggregating message passing over a graph,
      out = relu (mean @ W_lᵀ + b + x @ W_rᵀ),   mean = agg / max cnt 1,
  with `agg` the scatter-added features of each node's in-neighbours and `cnt` their number. Both programs build
  `agg` and `cnt` by the same gather and scatter-add; they differ in where the division sits. The reference divides
  the aggregated rows and then multiplies by `W_lᵀ`; the kernel multiplies first, ten blocks of 5000 rows at a time,
  and scales each row of the product by the reciprocal `1 / max cnt 1`. Over the extended reals the two agree for
  all inputs: the divisor is a finite sum of ones, at least one, so a positive real, and a product by a nonnegative
  real distributes over every sum of extended reals. The precondition is not used by the value claim.

  The modules: LibRowScale (the law, and that a scatter-add of ones is a natural number), Spec (the layer,
  entry by entry, in both arrangements), Payload (the body's store at an entry), Blocks and KernelArray (from the
  ten row blocks to the result array), RegionEntry (the arrays the region finds), Divisor (the divisor is a positive
  real), RefLayer (the reference's result is the layer), KernelLayer (the kernel's result is the layer).
-/
import proofs.«114602_j12635793785118_2_alg».proof.Defs
import proofs.«114602_j12635793785118_2_alg».proof.Proof.Gen.Kernel
import proofs.«114602_j12635793785118_2_alg».proof.Proof.Gen.Kernel.Frame
import proofs.«114602_j12635793785118_2_alg».proof.Proof.Gen.KernelIdeal
import proofs.«114602_j12635793785118_2_alg».proof.Proof.Gen.KernelIdeal.Frame
import proofs.«114602_j12635793785118_2_alg».proof.Proof.Gen.KernelIdeal.Value
import proofs.«114602_j12635793785118_2_alg».proof.Proof.Gen.ReferenceIdeal
import proofs.«114602_j12635793785118_2_alg».proof.Proof.Gen.ReferenceIdeal.Run
import proofs.«114602_j12635793785118_2_alg».proof.Proof.Gen.ReferenceIdeal.Read
import proofs.«114602_j12635793785118_2_alg».proof.Proof.Gen.Pre_finite_inputs
import proofs.«114602_j12635793785118_2_alg».proof.Proof.KernelLayer
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the specification's layer of the aggregation stage, the divisor stage and the argument
    arrays, which agree. -/
theorem algebraic : Cert.algebraic_KernelIdeal_ReferenceIdeal := by
  intro m ρ m' ρ' _ hagree
  refine ⟨fun c => Cert.KernelIdeal.KernelArray.scaled m c, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.KernelArray.scaled m c
  rw [Cert.ReferenceIdeal.Read.val_main_v31_eq, Cert.ReferenceIdeal.RefLayer.result_eq,
    Cert.KernelIdeal.KernelLayer.scaled_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
